-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x1024 : Shape := ⟨3, ![4, 512, 1024]⟩
abbrev S4x64x1024 : Shape := ⟨3, ![4, 64, 1024]⟩
abbrev S_ : Shape := ⟨0, ![]⟩

class Facts : Prop where
  bcast_S_S4x512x1024 : S_.BroadcastsInDim S4x512x1024 (![] : Fin 0 → Fin S4x512x1024.rank)
  reducesTo_S4x512x1024_S_d0_1_2 : S4x512x1024.ReducesTo [0, 1, 2] S_
  h_S_ : 0 < S_.numel
  bcast_S_S4x64x1024 : S_.BroadcastsInDim S4x64x1024 (![] : Fin 0 → Fin S4x64x1024.rank)
  reducesTo_S4x64x1024_S_d0_1_2 : S4x64x1024.ReducesTo [0, 1, 2] S_

variable [Facts]

def fn {F : FTy → Type} [FloatOps F] (main_arg0 : FVec F S4x512x1024 .f32) (main_arg1 : FVec F S4x64x1024 .f32) : IVec S_ 1 :=
  let main_v0 : FVec F S4x512x1024 .f32 := Host.absf main_arg0
  let main_cst : FVec F S_ .f32 := constant S_ .f32 0x7F800000#32
  let main_v1 : FVec F S4x512x1024 .f32 := broadcastInDim S4x512x1024 ![] bcast_S_S4x512x1024 main_cst
  let main_v2 : IVec S4x512x1024 1 := cmpf .olt main_v0 main_v1
  let main_c : IVec S_ 1 := constantI S_ 1 1#1
  let main_v3 : IVec S_ 1 := (fun x v => Host.reduce IntOp.andi x v reducesTo_S4x512x1024_S_d0_1_2 h_S_) main_v2 main_c
  let main_v4 : FVec F S4x64x1024 .f32 := Host.absf main_arg1
  let main_cst_0 : FVec F S_ .f32 := constant S_ .f32 0x7F800000#32
  let main_v5 : FVec F S4x64x1024 .f32 := broadcastInDim S4x64x1024 ![] bcast_S_S4x64x1024 main_cst_0
  let main_v6 : IVec S4x64x1024 1 := cmpf .olt main_v4 main_v5
  let main_c_1 : IVec S_ 1 := constantI S_ 1 1#1
  let main_v7 : IVec S_ 1 := (fun x v => Host.reduce IntOp.andi x v reducesTo_S4x64x1024_S_d0_1_2 h_S_) main_v6 main_c_1
  let main_v8 : IVec S_ 1 := andi main_v3 main_v7
  main_v8
-- ==== Kernel.lean ====
abbrev S4x512x1024 : Shape := ⟨3, ![4, 512, 1024]⟩
abbrev S4x64x1024 : Shape := ⟨3, ![4, 64, 1024]⟩
abbrev S4x512x64x1024 : Shape := ⟨4, ![4, 512, 64, 1024]⟩
abbrev S1x32x1024 : Shape := ⟨3, ![1, 32, 1024]⟩
abbrev S1x64x1024 : Shape := ⟨3, ![1, 64, 1024]⟩
abbrev S1x32x64x1024 : Shape := ⟨4, ![1, 32, 64, 1024]⟩
abbrev S1x32 : Shape := ⟨2, ![1, 32]⟩
abbrev S1x32x1 : Shape := ⟨3, ![1, 32, 1]⟩
abbrev S1x64 : Shape := ⟨2, ![1, 64]⟩
abbrev S1x64x1 : Shape := ⟨3, ![1, 64, 1]⟩
abbrev S1x32x1x1024 : Shape := ⟨4, ![1, 32, 1, 1024]⟩
abbrev S1x1x64x1024 : Shape := ⟨4, ![1, 1, 64, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x512x1024, .f32⟩
  | .hbm, ⟨1, _⟩ => ⟨S4x64x1024, .f32⟩
  | .hbm, ⟨2, _⟩ => ⟨S4x512x64x1024, .f32⟩
  | .local _ .vmem, ⟨0, _⟩ => ⟨S1x32x1024, .f32⟩
  | .local _ .vmem, ⟨1, _⟩ => ⟨S1x32x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x32x64x1024, .f32⟩
  | .local _ .vmem, ⟨5, _⟩ => ⟨S1x32x64x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x32x1024_S1x32x1024_0_0_0 : ∀ a, (![0, 0, 0] : Fin 3 → Nat) a + S1x32x1024.size a ≤ S1x32x1024.size a
  h_S1x32x1024 : 0 < S1x32x1024.numel
  inb_S1x64x1024_S1x64x1024_0_0_0 : ∀ a, (![0, 0, 0] : Fin 3 → Nat) a + S1x64x1024.size a ≤ S1x64x1024.size a
  h_S1x64x1024 : 0 < S1x64x1024.numel
  reduces_S1x32x1024_S1x32 : S1x32x1024.Reduces [2] S1x32
  shapeCasts_S1x32_S1x32x1 : S1x32.ShapeCasts S1x32x1
  broadcasts_S1x32x1_S1x32x1024 : S1x32x1.Broadcasts S1x32x1024
  reduces_S1x64x1024_S1x64 : S1x64x1024.Reduces [2] S1x64
  shapeCasts_S1x64_S1x64x1 : S1x64.ShapeCasts S1x64x1
  broadcasts_S1x64x1_S1x64x1024 : S1x64x1.Broadcasts S1x64x1024
  iota_S1x64x1024_d2_w32 : S1x64x1024.Iotas .tc 32 [2]
  shapeCasts_S1x32x1024_S1x32x1x1024 : S1x32x1024.ShapeCasts S1x32x1x1024
  shapeCasts_S1x64x1024_S1x1x64x1024 : S1x64x1024.ShapeCasts S1x1x64x1024
  broadcasts_S1x32x1x1024_S1x32x64x1024 : S1x32x1x1024.Broadcasts S1x32x64x1024
  broadcasts_S1x1x64x1024_S1x32x64x1024 : S1x1x64x1024.Broadcasts S1x32x64x1024
  inb_S1x32x64x1024_S1x32x64x1024_0_0_0_0 : ∀ a, (![0, 0, 0, 0] : Fin 4 → Nat) a + S1x32x64x1024.size a ≤ S1x32x64x1024.size a
  h_S1x32x64x1024 : 0 < S1x32x64x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x1024.size a ≤ S4x512x1024.size a
  hwx0_0 : ∀ i : grid0.Coords, EltTy.bits .f32 = 32 ∨ (Rect.block (s := S4x512x1024) S1x32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S4x64x1024.size a
  hwx0_1 : ∀ i : grid0.Coords, EltTy.bits .f32 = 32 ∨ (Rect.block (s := S4x64x1024) S1x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x64x1024.size a ≤ S4x512x64x1024.size a
  hwx0_2 : ∀ i : grid0.Coords, EltTy.bits .f32 = 32 ∨ (Rect.block (s := S4x512x64x1024) S1x32x64x1024.size (cc0_transform_2 i) (hinb0_2 i)).WholeWords (EltTy.packing .f32)

variable [Facts₀]

abbrev win0_0 : Pipeline.Window sig grid0 :=
  Pipeline.Window.ofSpec (Memref.whole main_arg0) S1x32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32x64x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x512x1024 : Shape := ⟨3, ![4, 512, 1024]⟩
abbrev S4x64x1024 : Shape := ⟨3, ![4, 64, 1024]⟩
abbrev S_ : Shape := ⟨0, ![]⟩
abbrev S4x512 : Shape := ⟨2, ![4, 512]⟩
abbrev S4x512x1 : Shape := ⟨3, ![4, 512, 1]⟩
abbrev S4x64 : Shape := ⟨2, ![4, 64]⟩
abbrev S4x64x1 : Shape := ⟨3, ![4, 64, 1]⟩
abbrev S4x64x1023 : Shape := ⟨3, ![4, 64, 1023]⟩
abbrev S4x512x1x1024 : Shape := ⟨4, ![4, 512, 1, 1024]⟩
abbrev S4x1x64x1024 : Shape := ⟨4, ![4, 1, 64, 1024]⟩
abbrev S4x512x64x1024 : Shape := ⟨4, ![4, 512, 64, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S4x64x1024, .f32⟩
  | .hbm, ⟨2, _⟩ => ⟨S_, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S4x512x1, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .hbm, ⟨11, _⟩ => ⟨S_, .f32⟩
  | .hbm, ⟨12, _⟩ => ⟨S4x512, .f32⟩
  | .hbm, ⟨13, _⟩ => ⟨S4x512x1, .f32⟩
  | .hbm, ⟨14, _⟩ => ⟨S4x512x1, .f32⟩
  | .hbm, ⟨15, _⟩ => ⟨S4x512x1024, .f32⟩
  | .hbm, ⟨16, _⟩ => ⟨S4x512x1024, .f32⟩
  | .hbm, ⟨17, _⟩ => ⟨S_, .f32⟩
  | .hbm, ⟨18, _⟩ => ⟨S4x64, .f32⟩
  | .hbm, ⟨19, _⟩ => ⟨S_, .f32⟩
  | .hbm, ⟨20, _⟩ => ⟨S4x64, .f32⟩
  | .hbm, ⟨21, _⟩ => ⟨S4x64, .f32⟩
  | .hbm, ⟨22, _⟩ => ⟨S4x64x1, .f32⟩
  | .hbm, ⟨23, _⟩ => ⟨S4x64x1024, .f32⟩
  | .hbm, ⟨24, _⟩ => ⟨S4x64x1024, .f32⟩
  | .hbm, ⟨25, _⟩ => ⟨S4x64x1024, .f32⟩
  | .hbm, ⟨26, _⟩ => ⟨S_, .f32⟩
  | .hbm, ⟨27, _⟩ => ⟨S4x64, .f32⟩
  | .hbm, ⟨28, _⟩ => ⟨S4x64x1, .f32⟩
  | .hbm, ⟨29, _⟩ => ⟨S4x64x1, .f32⟩
  | .hbm, ⟨30, _⟩ => ⟨S4x64x1024, .f32⟩
  | .hbm, ⟨31, _⟩ => ⟨S4x64x1024, .f32⟩
  | .hbm, ⟨32, _⟩ => ⟨S_, .f32⟩
  | .hbm, ⟨33, _⟩ => ⟨S4x64x1, .f32⟩
  | .hbm, ⟨34, _⟩ => ⟨S4x64x1023, .f32⟩
  | .hbm, ⟨35, _⟩ => ⟨S4x64x1024, .f32⟩
  | .hbm, ⟨36, _⟩ => ⟨S4x512x1x1024, .f32⟩
  | .hbm, ⟨37, _⟩ => ⟨S4x1x64x1024, .f32⟩
  | .hbm, ⟨38, _⟩ => ⟨S4x512x64x1024, .f32⟩
  | .hbm, ⟨39, _⟩ => ⟨S4x512x64x1024, .f32⟩
  | .hbm, ⟨40, _⟩ => ⟨S4x512x64x1024, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_call1_cst : Ref sig .tc := ⟨.hbm, 17, rfl⟩
abbrev main_call1_v0 : Ref sig .tc := ⟨.hbm, 18, rfl⟩
abbrev main_call1_cst_0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_cst_1 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_v1 : Ref sig .tc := ⟨.hbm, 31, rfl⟩
abbrev main_cst : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩

abbrev nD : Nat := 1
abbrev τ : Topo := Topo.v7x

variable {F : FTy → Type} [FloatOps F]

class Facts₀ : Prop where
  reducesTo_S4x512x1024_S4x512_d2 : S4x512x1024.ReducesTo [2] S4x512
  h_S_ : 0 < S_.numel
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  bcast_S4x512x1_S4x512x1024_0_1_2 : S4x512x1.BroadcastsInDim S4x512x1024 (![0, 1, 2] : Fin 3 → Fin S4x512x1024.rank)
  reducesTo_S4x64x1024_S4x64_d2 : S4x64x1024.ReducesTo [2] S4x64
  bcast_S_S4x64 : S_.BroadcastsInDim S4x64 (![] : Fin 0 → Fin S4x64.rank)
  bcast_S4x64_S4x64x1_0_1 : S4x64.BroadcastsInDim S4x64x1 (![0, 1] : Fin 2 → Fin S4x64x1.rank)
  bcast_S4x64x1_S4x64x1024_0_1_2 : S4x64x1.BroadcastsInDim S4x64x1024 (![0, 1, 2] : Fin 3 → Fin S4x64x1024.rank)
  bcast_S_S4x64x1 : S_.BroadcastsInDim S4x64x1 (![] : Fin 0 → Fin S4x64x1.rank)
  slices_S4x64x1024_S4x64x1023_0_0_1 : S4x64x1024.Slices ![0, 0, 1] S4x64x1023
  concatenates_S4x64x1_S4x64x1023_S4x64x1024_d2 : Shape.Concatenates [S4x64x1, S4x64x1023] S4x64x1024 2
  bcast_S4x512x1024_S4x512x1x1024_0_1_3 : S4x512x1024.BroadcastsInDim S4x512x1x1024 (![0, 1, 3] : Fin 3 → Fin S4x512x1x1024.rank)
  bcast_S4x64x1024_S4x1x64x1024_0_2_3 : S4x64x1024.BroadcastsInDim S4x1x64x1024 (![0, 2, 3] : Fin 3 → Fin S4x1x64x1024.rank)
  bcast_S4x512x1x1024_S4x512x64x1024_0_1_2_3 : S4x512x1x1024.BroadcastsInDim S4x512x64x1024 (![0, 1, 2, 3] : Fin 4 → Fin S4x512x64x1024.rank)
  bcast_S4x1x64x1024_S4x512x64x1024_0_1_2_3 : S4x1x64x1024.BroadcastsInDim S4x512x64x1024 (![0, 1, 2, 3] : Fin 4 → Fin S4x512x64x1024.rank)

variable [Facts₀]

class Facts : Prop extends Facts₀ where

variable [Facts]
-- ==== Proof.JointSpec.lean ====
/-
  The value both programs compute, on the extended reals, index by index.

  For a row `f` of 1024 extended reals, `logSoftmax f k = (f k − M) − log (∑ⱼ exp (f j − M))` with `M = rowMax f` the
  largest entry of the row (the fold of `max` over the lanes, started from −∞). The joint output at (b, t, u, v) is the
  log-softmax of row (b, t) of the first argument at lane v, plus — for v ≠ 0 — the log-softmax of row (b, u) of the
  second argument at lane v; at v = 0 the second summand is the constant 0 (the blank column is zeroed).
  Both −∞ and 0 stand as the words the programs write (`0xFF800000`, `0x00000000`); neither is ever evaluated here.
-/
import Idealize.ShloMosaic.PureOps.Ideal
import Idealize.ShloMosaic.Lib.ValueIdx

noncomputable section

namespace Cert.JointSpec

open Idealize.ShloMosaic Idealize.ShloMosaic.ValueIdx

/-- The largest entry of a row, folded from −∞. -/
def rowMax (f : Fin 1024 → EReal) : EReal :=
  (Finset.univ : Finset (Fin 1024)).fold max (Ideal.ofBits .f32 0xFF800000#32) f

/-- The log-softmax of a row at lane `k`: the entry shifted by the row's largest, less the logarithm of the sum of the
    exponentials of the shifted entries. -/
def logSoftmax (f : Fin 1024 → EReal) (k : Fin 1024) : EReal :=
  (f k - rowMax f) - Ideal.log (∑ j : Fin 1024, Ideal.exp (f j - rowMax f))

/-- The same with lane 0 replaced by the constant 0. -/
def logSoftmaxBlank (f : Fin 1024 → EReal) (k : Fin 1024) : EReal :=
  if k.val = 0 then Ideal.ofBits .f32 0x00000000#32 else logSoftmax f k

/-- The joint output at coordinates (b, t, u, v). -/
def jointAt (tn : FVec Ideal ⟨3, ![4, 512, 1024]⟩ .f32) (pn : FVec Ideal ⟨3, ![4, 64, 1024]⟩ .f32)
    (b : Fin 4) (t : Fin 512) (u : Fin 64) (v : Fin 1024) : EReal :=
  logSoftmax (fun k => tn (ix3 b t k)) v + logSoftmaxBlank (fun k => pn (ix3 b u k)) v

/-- The joint output as one array over [4, 512, 64, 1024]. -/
def joint (tn : FVec Ideal ⟨3, ![4, 512, 1024]⟩ .f32) (pn : FVec Ideal ⟨3, ![4, 64, 1024]⟩ .f32) :
    FVec Ideal ⟨4, ![4, 512, 64, 1024]⟩ .f32 :=
  fun i => jointAt tn pn (i 0) (i 1) (i 2) (i 3)

theorem joint_ix4 (tn : FVec Ideal ⟨3, ![4, 512, 1024]⟩ .f32) (pn : FVec Ideal ⟨3, ![4, 64, 1024]⟩ .f32)
    (b : Fin 4) (t : Fin 512) (u : Fin 64) (v : Fin 1024) : joint tn pn (ix4 b t u v) = jointAt tn pn b t u v := rfl

end Cert.JointSpec

end
-- ==== Proof.KernelBody.lean ====
/-
  The kernel body's one stored value, read at an index of the [1, 32, 64, 1024] output block.

  The body takes a [1, R, 1024] block `x` (R = 32 rows of the first argument, R = 64 rows of the second) to its
  log-softmax along the lanes: the lane maximum from −∞ gives one number per row, which is cast to a column and
  broadcast back along the lanes and subtracted (`shifted`); the exponentials of the shifted entries are summed along
  the lanes (`blockSum`); the logarithm of that column, broadcast back, is subtracted again (`lsmBlock`). Read at
  (a, r, k) this is `logSoftmax` of row (a, r) at lane k. The second block's lane 0 is then replaced by the constant 0
  (a select on the lane number), both are spread over the missing axis ([1,32,1024] → [1,32,1,1024] → [1,32,64,1024] and
  [1,64,1024] → [1,1,64,1024] → [1,32,64,1024]) and added.
-/
import proofs.«138528_j22462678958222_2_alg».proof.Proof.Gen.KernelIdeal.Skeleton
import proofs.«138528_j22462678958222_2_alg».proof.Proof.JointSpec
import Idealize.ShloMosaic.Lib.Pipeline.Value
import Idealize.ShloMosaic.Lib.ValueIdx
import Idealize.ShloMosaic.PureOps.Ideal.Laws

noncomputable section

namespace Cert.KernelIdeal.Body

open Cert.KernelIdeal Cert.JointSpec Idealize.ShloMosaic Idealize.ShloMosaic.ValueIdx

/-! ## Reductions along the lanes of a [1, R, 1024] block -/

/-- Row (a, r) with lane k put back on the last axis is the index (a, r, k). -/
theorem lift_rows {R : Nat} (h : (⟨3, ![1, R, 1024]⟩ : Shape).Reduces [2] ⟨2, ![1, R]⟩) (a : Fin 1) (r : Fin R)
    (k : Fin ((⟨3, ![1, R, 1024]⟩ : Shape).size 2)) : h.lift (ix2 a r) k = ix3 a r (⟨k.val, k.isLt⟩ : Fin 1024) := by
  funext c; apply Fin.ext
  fin_cases c <;> rfl

/-- The lane maximum from −∞, at row (a, r), is the largest entry of that row. -/
theorem rowMax_rows {R : Nat} (x : FVec Ideal ⟨3, ![1, R, 1024]⟩ .f32)
    (h : (⟨3, ![1, R, 1024]⟩ : Shape).Reduces [2] ⟨2, ![1, R]⟩) (hφ : FKind.Formats .f32)
    (hacc : (0xFF800000#32 : BitVec 32) = FKind.maximumf.neutral .f32 hφ) (a : Fin 1) (r : Fin R) :
    multiReduction .maximumf [2] ⟨2, ![1, R]⟩ x 0xFF800000#32 h hφ hacc (ix2 a r) = rowMax (fun k => x (ix3 a r k)) := by
  refine (Ideal.multiReduction_maximumf_single x _ h hφ hacc (ix2 a r)).trans ?_
  have hf : (x ∘ h.lift (ix2 a r)) = fun k : Fin 1024 => x (ix3 a r k) :=
    funext fun k => congrArg x (lift_rows h a r k)
  exact congrArg (fun f => Finset.fold max (Ideal.ofBits .f32 0xFF800000#32) f (Finset.univ : Finset (Fin 1024))) hf

/-- The lane sum from 0, at row (a, r), is the sum of that row's entries. -/
theorem rowSum_rows {R : Nat} (x : FVec Ideal ⟨3, ![1, R, 1024]⟩ .f32)
    (h : (⟨3, ![1, R, 1024]⟩ : Shape).Reduces [2] ⟨2, ![1, R]⟩) (hφ : FKind.Formats .f32)
    (hacc : (0x00000000#32 : BitVec 32) = FKind.add.neutral .f32 hφ) (a : Fin 1) (r : Fin R) :
    multiReduction .add [2] ⟨2, ![1, R]⟩ x 0x00000000#32 h hφ hacc (ix2 a r) = ∑ k : Fin 1024, x (ix3 a r k) := by
  refine (Ideal.multiReduction_add_single x _ h hφ hacc (ix2 a r)).trans ?_
  exact Finset.sum_congr rfl fun k _ => congrArg x (lift_rows h a r k)

/-! ## The layout steps read at an index -/

/-- One number per row, cast to a column [1, R, 1] and broadcast along the lanes, read at (a, r, k): row (a, r)'s number. -/
theorem keepdims_rows {α : Type} {R : Nat} (w : (⟨2, ![1, R]⟩ : Shape).Idx → α)
    (h1 : (⟨2, ![1, R]⟩ : Shape).ShapeCasts ⟨3, ![1, R, 1]⟩) (h2 : (⟨3, ![1, R, 1]⟩ : Shape).Broadcasts ⟨3, ![1, R, 1024]⟩)
    (a : Fin 1) (r : Fin R) (k : Fin 1024) :
    broadcastTo ⟨3, ![1, R, 1024]⟩ (shapeCast ⟨3, ![1, R, 1]⟩ w h1) h2 (ix3 a r k) = w (ix2 a r) := by
  have ha : a.val = 0 := by have := a.isLt; omega
  refine (broadcastTo_apply _ h2 (ix3 a r k) (ix3 a r (⟨0, Nat.one_pos⟩ : Fin 1)) (fun c => ?_)).trans ?_
  · match c with
    | ⟨0, _⟩ => show a.val = if (1 : Nat) = 1 then 0 else a.val; rw [if_pos rfl, ha]
    | ⟨1, _⟩ =>
      show r.val = if R = 1 then 0 else r.val
      by_cases hR : R = 1
      · rw [if_pos hR]; have := r.isLt; omega
      · rw [if_neg hR]
    | ⟨2, _⟩ => show 0 = if (1 : Nat) = 1 then 0 else k.val; rw [if_pos rfl]
  · refine shapeCast_apply w h1 _ (ix2 a r) ?_
    rw [Shape.rowMajor_val_two, Shape.rowMajor_val_three]
    show a.val * R + r.val = (a.val * R + r.val) * 1 + 0
    omega

/-- A [1, R, 1024] block viewed [1, R, 1, 1024] and copied U times along the new axis, read at (a, r, u, v): entry (a, r, v). -/
theorem spread_rows {α : Type} {R U : Nat} (y : (⟨3, ![1, R, 1024]⟩ : Shape).Idx → α)
    (hc : (⟨3, ![1, R, 1024]⟩ : Shape).ShapeCasts ⟨4, ![1, R, 1, 1024]⟩)
    (hb : (⟨4, ![1, R, 1, 1024]⟩ : Shape).Broadcasts ⟨4, ![1, R, U, 1024]⟩)
    (a : Fin 1) (r : Fin R) (u : Fin U) (v : Fin 1024) :
    broadcastTo ⟨4, ![1, R, U, 1024]⟩ (shapeCast ⟨4, ![1, R, 1, 1024]⟩ y hc) hb (ix4 a r u v) = y (ix3 a r v) := by
  have ha : a.val = 0 := by have := a.isLt; omega
  refine (broadcastTo_apply _ hb (ix4 a r u v) (ix4 a r (⟨0, Nat.one_pos⟩ : Fin 1) v) (fun c => ?_)).trans ?_
  · match c with
    | ⟨0, _⟩ => show a.val = if (1 : Nat) = 1 then 0 else a.val; rw [if_pos rfl, ha]
    | ⟨1, _⟩ =>
      show r.val = if R = 1 then 0 else r.val
      by_cases hR : R = 1
      · rw [if_pos hR]; have := r.isLt; omega
      · rw [if_neg hR]
    | ⟨2, _⟩ => show 0 = if (1 : Nat) = 1 then 0 else u.val; rw [if_pos rfl]
    | ⟨3, _⟩ => show v.val = if (1024 : Nat) = 1 then 0 else v.val; rw [if_neg (by decide)]
  · refine shapeCast_apply y hc _ (ix3 a r v) ?_
    rw [Shape.rowMajor_val_three, Shape.rowMajor_val_four]
    show (a.val * R + r.val) * 1024 + v.val = ((a.val * R + r.val) * 1 + 0) * 1024 + v.val
    omega

/-- A [1, U, 1024] block viewed [1, 1, U, 1024] and copied R times along the new axis, read at (a, r, u, v): entry (a, u, v). -/
theorem spread_cols {α : Type} {R U : Nat} (y : (⟨3, ![1, U, 1024]⟩ : Shape).Idx → α)
    (hc : (⟨3, ![1, U, 1024]⟩ : Shape).ShapeCasts ⟨4, ![1, 1, U, 1024]⟩)
    (hb : (⟨4, ![1, 1, U, 1024]⟩ : Shape).Broadcasts ⟨4, ![1, R, U, 1024]⟩)
    (a : Fin 1) (r : Fin R) (u : Fin U) (v : Fin 1024) :
    broadcastTo ⟨4, ![1, R, U, 1024]⟩ (shapeCast ⟨4, ![1, 1, U, 1024]⟩ y hc) hb (ix4 a r u v) = y (ix3 a u v) := by
  have ha : a.val = 0 := by have := a.isLt; omega
  refine (broadcastTo_apply _ hb (ix4 a r u v) (ix4 a (⟨0, Nat.one_pos⟩ : Fin 1) u v) (fun c => ?_)).trans ?_
  · match c with
    | ⟨0, _⟩ => show a.val = if (1 : Nat) = 1 then 0 else a.val; rw [if_pos rfl, ha]
    | ⟨1, _⟩ => show 0 = if (1 : Nat) = 1 then 0 else r.val; rw [if_pos rfl]
    | ⟨2, _⟩ =>
      show u.val = if U = 1 then 0 else u.val
      by_cases hU : U = 1
      · rw [if_pos hU]; have := u.isLt; omega
      · rw [if_neg hU]
    | ⟨3, _⟩ => show v.val = if (1024 : Nat) = 1 then 0 else v.val; rw [if_neg (by decide)]
  · refine shapeCast_apply y hc _ (ix3 a u v) ?_
    rw [Shape.rowMajor_val_three, Shape.rowMajor_val_four]
    show (a.val * U + u.val) * 1024 + v.val = ((a.val * 1 + 0) * U + u.val) * 1024 + v.val
    rw [ha] <;> omega

/-- Lane 0 replaced by the constant 0 by a select on the lane number: at (a, u, v) the constant when v = 0, the entry otherwise. -/
theorem blank_rows {U : Nat} (y : FVec Ideal ⟨3, ![1, U, 1024]⟩ .f32) (hi : (⟨3, ![1, U, 1024]⟩ : Shape).Iotas .tc 32 [2])
    (a : Fin 1) (u : Fin U) (v : Fin 1024) :
    select (cmpi .eq (iota .tc ⟨3, ![1, U, 1024]⟩ 32 [2] hi) (broadcast ⟨3, ![1, U, 1024]⟩ (0#32 : BitVec 32)))
        (broadcast ⟨3, ![1, U, 1024]⟩ (Scalar.ofBits (F := Ideal) .f32 0x00000000#32)) y (ix3 a u v)
      = if v.val = 0 then Ideal.ofBits .f32 0x00000000#32 else y (ix3 a u v) := by
  show Scalar.select (IntOp.cmpi .eq (iota .tc ⟨3, ![1, U, 1024]⟩ 32 [2] hi (ix3 a u v)) (0#32 : BitVec 32))
      (Scalar.ofBits (F := Ideal) .f32 0x00000000#32) (y (ix3 a u v)) = _
  rw [iota_single_apply]
  show Scalar.select (BitVec.ofBool (BitVec.ofNat 32 v.val == (0#32 : BitVec 32))) _ _ = _
  by_cases h0 : v.val = 0
  · rw [if_pos h0, h0]; rfl
  · rw [if_neg h0]
    have hne : (BitVec.ofNat 32 v.val == (0#32 : BitVec 32)) = false := by
      rw [beq_eq_false_iff_ne]
      intro h
      have e := congrArg BitVec.toNat h
      rw [BitVec.toNat_ofNat] at e
      have hv := v.isLt
      have : v.val % 2 ^ 32 = v.val := Nat.mod_eq_of_lt (by omega)
      rw [this] at e
      exact h0 e
    rw [hne]; rfl

/-! ## The body's log-softmax of a block -/

variable {R : Nat} (x : FVec Ideal ⟨3, ![1, R, 1024]⟩ .f32)
  (hr : (⟨3, ![1, R, 1024]⟩ : Shape).Reduces [2] ⟨2, ![1, R]⟩)
  (hc : (⟨2, ![1, R]⟩ : Shape).ShapeCasts ⟨3, ![1, R, 1]⟩)
  (hb : (⟨3, ![1, R, 1]⟩ : Shape).Broadcasts ⟨3, ![1, R, 1024]⟩)

/-- The block less its rows' largest entries. -/
def shifted : FVec Ideal ⟨3, ![1, R, 1024]⟩ .f32 :=
  subf x (broadcastTo ⟨3, ![1, R, 1024]⟩
    (shapeCast ⟨3, ![1, R, 1]⟩ (multiReduction .maximumf [2] ⟨2, ![1, R]⟩ x 0xFF800000#32 hr (.inl rfl) rfl) hc) hb)

/-- Per row, the sum of the exponentials of the shifted entries. -/
def blockSum : FVec Ideal ⟨2, ![1, R]⟩ .f32 :=
  multiReduction .add [2] ⟨2, ![1, R]⟩ (exp (shifted x hr hc hb)) 0x00000000#32 hr (.inl rfl) rfl

/-- The block's log-softmax along the lanes, as the body spells it. -/
def lsmBlock : FVec Ideal ⟨3, ![1, R, 1024]⟩ .f32 :=
  subf (shifted x hr hc hb)
    (broadcastTo ⟨3, ![1, R, 1024]⟩ (log (shapeCast ⟨3, ![1, R, 1]⟩ (blockSum x hr hc hb) hc)) hb)

theorem shifted_apply (a : Fin 1) (r : Fin R) (k : Fin 1024) :
    shifted x hr hc hb (ix3 a r k) = x (ix3 a r k) - rowMax (fun j => x (ix3 a r j)) :=
  congrArg (x (ix3 a r k) - ·) ((keepdims_rows _ hc hb a r k).trans (rowMax_rows x hr _ _ a r))

theorem blockSum_apply (a : Fin 1) (r : Fin R) :
    blockSum x hr hc hb (ix2 a r) = ∑ j : Fin 1024, Ideal.exp (x (ix3 a r j) - rowMax (fun j => x (ix3 a r j))) :=
  (rowSum_rows _ hr _ _ a r).trans
    (Finset.sum_congr rfl fun j _ => congrArg Ideal.exp (shifted_apply x hr hc hb a r j))

theorem lsmBlock_apply (a : Fin 1) (r : Fin R) (k : Fin 1024) :
    lsmBlock x hr hc hb (ix3 a r k) = logSoftmax (fun j => x (ix3 a r j)) k := by
  show shifted x hr hc hb (ix3 a r k)
      - broadcastTo ⟨3, ![1, R, 1024]⟩ (shapeCast ⟨3, ![1, R, 1]⟩ (fun i => Ideal.log (blockSum x hr hc hb i)) hc) hb (ix3 a r k) = _
  rw [shifted_apply, keepdims_rows, blockSum_apply]
  rfl

/-! ## The stored value at an index -/

/-- The body's stored value at (a, r, u, v) of the output block: the log-softmax of row (a, r) of the first block at
    lane v, plus that of row (a, u) of the second block at lane v with lane 0 blanked. -/
theorem pay_apply (x0 : FVec Ideal S1x32x1024 .f32) (x1 : FVec Ideal S1x64x1024 .f32)
    (a : Fin 1) (r : Fin 32) (u : Fin 64) (v : Fin 1024) :
    Gen.k0_pay1 (F := Ideal) x0 x1 (ix4 a r u v)
      = logSoftmax (fun k => x0 (ix3 a r k)) v + logSoftmaxBlank (fun k => x1 (ix3 a u k)) v := by
  show broadcastTo S1x32x64x1024 (shapeCast S1x32x1x1024 (lsmBlock x0 _ _ _) _) _ (ix4 a r u v)
      + broadcastTo S1x32x64x1024 (shapeCast S1x1x64x1024
          (select (cmpi .eq (iota .tc S1x64x1024 32 [2] _) (broadcast S1x64x1024 (0#32 : BitVec 32)))
            (broadcast S1x64x1024 (Scalar.ofBits (F := Ideal) .f32 0x00000000#32)) (lsmBlock x1 _ _ _)) _) _ (ix4 a r u v) = _
  rw [spread_rows, spread_cols, blank_rows, lsmBlock_apply, lsmBlock_apply]
  rfl

end Cert.KernelIdeal.Body

end
-- ==== Proof.KernelArray.lean ====
/-
  From the blocks to the whole output array.

  The grid has 4 × 16 points. Point t, with block indices (b, s) = the output window's index at t, reads rows
  32·s … 32·s + 31 of batch b of the first argument (block (b, s, 0)), all 64 rows of batch b of the second (block
  (b, 0, 0)), and writes block (b, s, 0, 0) of the output, extents [1, 32, 64, 1024]. An index inside a block is the
  block index times the block extent plus the coordinate inside the block, axis by axis; so what point t writes back is
  the restriction to its block of the one function `joint` of the two argument arrays. The 64 blocks tile
  [4, 512, 64, 1024] (index (b, p, u, v) lies in the block of the point with indices (b, p / 32)), hence the array ends
  holding `joint` everywhere.
-/
import proofs.«138528_j22462678958222_2_alg».proof.Proof.Gen.KernelIdeal.Value
import proofs.«138528_j22462678958222_2_alg».proof.Proof.KernelBody

noncomputable section

namespace Cert.KernelIdeal.Whole

open Cert.KernelIdeal Cert.KernelIdeal.Gen Cert.JointSpec Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The body's value on blocks that are restrictions of two arrays `tn`, `pn` — the first block rows row0 … row0 + 31 of
    batch b of `tn`, the second batch b of `pn` — is the restriction of `joint tn pn` to rows row0 … row0 + 31 of batch b. -/
theorem block_eq (tn : FVec Ideal S4x512x1024 .f32) (pn : FVec Ideal S4x64x1024 .f32)
    (x0 : FVec Ideal S1x32x1024 .f32) (x1 : FVec Ideal S1x64x1024 .f32) (b : Fin 4) (row0 : Nat) (hrow : row0 + 32 ≤ 512)
    (h0 : ∀ (a : Fin 1) (r : Fin 32) (k : Fin 1024),
      x0 (ix3 a r k) = tn (ix3 b (⟨row0 + r.val, by have := r.isLt; omega⟩ : Fin 512) k))
    (h1 : ∀ (a : Fin 1) (u : Fin 64) (k : Fin 1024), x1 (ix3 a u k) = pn (ix3 b u k))
    (a : Fin 1) (r : Fin 32) (u : Fin 64) (v : Fin 1024) :
    k0_pay1 x0 x1 (ix4 a r u v) = joint tn pn (ix4 b (⟨row0 + r.val, by have := r.isLt; omega⟩ : Fin 512) u v) := by
  rw [Body.pay_apply, joint_ix4]
  unfold jointAt
  rw [show (fun k => x0 (ix3 a r k)) = fun k => tn (ix3 b (⟨row0 + r.val, by have := r.isLt; omega⟩ : Fin 512) k) from
        funext fun k => h0 a r k,
      show (fun k => x1 (ix3 a u k)) = fun k => pn (ix3 b u k) from funext fun k => h1 a u k]

/-- The printed index maps, decided over the 64 grid points: the first argument's block moves with the output's on the
    batch and row-block axes, the second's on the batch axis only, every other block index is 0, and the output's block
    indices stay below 4 and 16. -/
theorem idx_facts : ∀ t : Fin cfg0.N,
    win0_0.index t (0 : Fin 3) = win0_2.index t (0 : Fin 4) ∧ win0_0.index t (1 : Fin 3) = win0_2.index t (1 : Fin 4)
    ∧ win0_0.index t (2 : Fin 3) = 0
    ∧ win0_1.index t (0 : Fin 3) = win0_2.index t (0 : Fin 4) ∧ win0_1.index t (1 : Fin 3) = 0 ∧ win0_1.index t (2 : Fin 3) = 0
    ∧ win0_2.index t (0 : Fin 4) ≤ 3 ∧ win0_2.index t (1 : Fin 4) ≤ 15
    ∧ win0_2.index t (2 : Fin 4) = 0 ∧ win0_2.index t (3 : Fin 4) = 0 :=
  (by decide +kernel : ∀ t : Fin grid0.N, _)

/-- Every pair of block indices (batch, row block) is some point's. -/
theorem idx_onto : ∀ (q0 : Fin 4) (q1 : Fin 16), ∃ t : Fin cfg0.N, win0_2.index t = ![q0.val, q1.val, 0, 0] :=
  (by decide +kernel : ∀ (q0 : Fin 4) (q1 : Fin 16), ∃ t : Fin grid0.N, win0_2.index t = ![q0.val, q1.val, 0, 0])

/-- What point `t` writes back is block `t` of `joint` of the argument arrays as the region finds them. -/
theorem flushed_eq (c : Dev nD) (t : Fin cfg0.N) :
    (dats m 0 c).flushed 2 t
      = ((cfg0.win 2).blk t).view.read (Elt Ideal) (joint (V m c main_arg0) (V m c main_arg1)) := by
  rw [Value.flushed2]
  unfold out0_2
  rw [View.canon_unit_zero zero4]
  simp only [View.ld_unit_zero (S := S1x32x1024) zero3, View.ld_unit_zero (S := S1x64x1024) zero3]
  obtain ⟨e00, e01, e02, e10, e11, e12, l0, l1, e22, e23⟩ := idx_facts t
  have hb : win0_2.index t (0 : Fin 4) < 4 := by omega
  have hrow : win0_2.index t (1 : Fin 4) * 32 + 32 ≤ 512 := by omega
  -- the first argument's block at t: rows 32·s … of batch b
  have h0 : ∀ (a : Fin 1) (r : Fin 32) (k : Fin 1024), iblk m c 0 t (ix3 a r k)
      = V m c main_arg0 (ix3 (⟨win0_2.index t (0 : Fin 4), hb⟩ : Fin 4)
          (⟨win0_2.index t (1 : Fin 4) * 32 + r.val, by have := r.isLt; omega⟩ : Fin 512) k) := by
    intro a r k
    show V m c main_arg0 (((cfg0.win 0).blk t).view.emb (ix3 a r k)) = V m c main_arg0 _
    refine congrArg (V m c main_arg0) (funext fun d => Fin.ext ?_)
    match d with
    | ⟨0, _⟩ =>
      show win0_0.index t (0 : Fin 3) * 1 + 1 * a.val = win0_2.index t (0 : Fin 4)
      have := a.isLt; omega
    | ⟨1, _⟩ =>
      show win0_0.index t (1 : Fin 3) * 32 + 1 * r.val = win0_2.index t (1 : Fin 4) * 32 + r.val
      omega
    | ⟨2, _⟩ =>
      show win0_0.index t (2 : Fin 3) * 1024 + 1 * k.val = k.val
      omega
  -- the second argument's block at t: batch b
  have h1 : ∀ (a : Fin 1) (u : Fin 64) (k : Fin 1024), iblk m c 1 t (ix3 a u k)
      = V m c main_arg1 (ix3 (⟨win0_2.index t (0 : Fin 4), hb⟩ : Fin 4) u k) := by
    intro a u k
    show V m c main_arg1 (((cfg0.win 1).blk t).view.emb (ix3 a u k)) = V m c main_arg1 _
    refine congrArg (V m c main_arg1) (funext fun d => Fin.ext ?_)
    match d with
    | ⟨0, _⟩ =>
      show win0_1.index t (0 : Fin 3) * 1 + 1 * a.val = win0_2.index t (0 : Fin 4)
      have := a.isLt; omega
    | ⟨1, _⟩ =>
      show win0_1.index t (1 : Fin 3) * 64 + 1 * u.val = u.val
      omega
    | ⟨2, _⟩ =>
      show win0_1.index t (2 : Fin 3) * 1024 + 1 * k.val = k.val
      omega
  funext j
  obtain ⟨a, r, u, v, rfl⟩ : ∃ (a : Fin 1) (r : Fin 32) (u : Fin 64) (v : Fin 1024), j = ix4 a r u v :=
    ⟨j 0, j 1, j 2, j 3, eq_ix4 j⟩
  show k0_pay1 (iblk m c 0 t) (iblk m c 1 t) (ix4 a r u v)
      = joint (V m c main_arg0) (V m c main_arg1) (((cfg0.win 2).blk t).view.emb (ix4 a r u v))
  have hemb : ((cfg0.win 2).blk t).view.emb (ix4 a r u v)
      = ix4 (⟨win0_2.index t (0 : Fin 4), hb⟩ : Fin 4)
          (⟨win0_2.index t (1 : Fin 4) * 32 + r.val, by have := r.isLt; omega⟩ : Fin 512) u v := by
    funext d; apply Fin.ext
    match d with
    | ⟨0, _⟩ =>
      show win0_2.index t (0 : Fin 4) * 1 + 1 * a.val = win0_2.index t (0 : Fin 4)
      have := a.isLt; omega
    | ⟨1, _⟩ =>
      show win0_2.index t (1 : Fin 4) * 32 + 1 * r.val = win0_2.index t (1 : Fin 4) * 32 + r.val
      omega
    | ⟨2, _⟩ =>
      show win0_2.index t (2 : Fin 4) * 64 + 1 * u.val = u.val
      omega
    | ⟨3, _⟩ =>
      show win0_2.index t (3 : Fin 4) * 1024 + 1 * v.val = v.val
      omega
  rw [hemb]
  exact block_eq (V m c main_arg0) (V m c main_arg1) (iblk m c 0 t) (iblk m c 1 t)
    (⟨win0_2.index t (0 : Fin 4), hb⟩ : Fin 4) (win0_2.index t (1 : Fin 4) * 32) hrow h0 h1 a r u v

/-- An index of the array is in point `t`'s block iff each coordinate is in the block's range on its axis. -/
theorem mem_blk (t : Fin cfg0.N) (i : S4x512x64x1024.Idx) :
    i ∈ ((cfg0.win 2).blk t).view.set ↔ ∀ a : Fin 4, win0_2.index t a * S1x32x64x1024.size a ≤ (i a).val
      ∧ (i a).val < win0_2.index t a * S1x32x64x1024.size a + S1x32x64x1024.size a := by
  show i ∈ ((View.whole main_v0).slice (win0_2.rect t)).set ↔ _
  rw [View.set_slice_whole, Rect.mem_set_unit]
  exact Iff.rfl

/-- Every index of the output array lies in the block of some point that writes back. -/
theorem cover (i : S4x512x64x1024.Idx) :
    ∃ t : Fin cfg0.N, (cfg0.win 2).flush t = true ∧ i ∈ ((cfg0.win 2).blk t).view.set := by
  have hi0 : (i 0).val < 4 := (i 0).isLt
  have hi1 : (i 1).val < 512 := (i 1).isLt
  have hi2 : (i 2).val < 64 := (i 2).isLt
  have hi3 : (i 3).val < 1024 := (i 3).isLt
  obtain ⟨t, ht⟩ := idx_onto ⟨(i 0).val, hi0⟩ ⟨(i 1).val / 32, by omega⟩
  have q0 : win0_2.index t (0 : Fin 4) = (i 0).val := congrFun ht 0
  have q1 : win0_2.index t (1 : Fin 4) = (i 1).val / 32 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ =>
    show win0_2.index t (0 : Fin 4) * 1 ≤ (i 0).val ∧ (i 0).val < win0_2.index t (0 : Fin 4) * 1 + 1
    omega
  | ⟨1, _⟩ =>
    show win0_2.index t (1 : Fin 4) * 32 ≤ (i 1).val ∧ (i 1).val < win0_2.index t (1 : Fin 4) * 32 + 32
    omega
  | ⟨2, _⟩ =>
    show win0_2.index t (2 : Fin 4) * 64 ≤ (i 2).val ∧ (i 2).val < win0_2.index t (2 : Fin 4) * 64 + 64
    omega
  | ⟨3, _⟩ =>
    show win0_2.index t (3 : Fin 4) * 1024 ≤ (i 3).val ∧ (i 3).val < win0_2.index t (3 : Fin 4) * 1024 + 1024
    omega

/-- The output array after the run is `joint` of the two argument arrays. -/
theorem final (c : Dev nD) : (dats m 0 c).arrAt 2 cfg0.N
    = joint (m ((c : Thread nD τ).loc main_arg0)) (m ((c : Thread nD τ).loc main_arg1)) :=
  (dats m 0 c).arrAt_eq_of_cover 2 (joint (V m c main_arg0) (V m c main_arg1)) (fun t _ => flushed_eq m c t) cover

/-- The kernel's run: every weakly fair execution terminates with the output array at `joint` of the argument arrays,
    and the argument arrays unchanged. -/
theorem run : θ_run defs (onTc (τ := τ) (main (F := Ideal))) ⟨m, fun _ => 0, ρ⟩ fun r => ∀ c : Dev nD,
      r.2.mem ((c : Thread nD τ).loc main_v0)
          = joint (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefOps.lean ====
/-
  The reference's @main as the list of its 39 host operations, in program order: each of the two log-softmax calls
  stands as its fifteen operations in the call's place (the row maximum from −∞, its maximum with −∞ again, the two
  keepdims broadcasts, the shift, the exponential, the row sum from 0, its broadcast, the logarithm, its broadcast, the
  second subtraction), then the zero column, the slice of columns 1…1023, their concatenation, the four broadcasts to
  [4, 512, 64, 1024] and the sum. Every operation is written with the builder over plain buffer references, its function
  ascribed the tensor types of its operands and result. The term named result below is the composition of these
  operations that ends in the result buffer, as one term of the two argument arrays.
-/
import proofs.«138528_j22462678958222_2_alg».proof.Proof.Gen.ReferenceIdeal
import Idealize.ShloMosaic.Lib.StableHlo.Run

noncomputable section

namespace Cert.ReferenceIdeal.HostOps

open Cert.ReferenceIdeal Cert.ReferenceIdeal.Gen Idealize.ShloMosaic Idealize.ShloMosaic.TcCoe Idealize.SL.Sem Idealize.ShloMosaic.StableHlo

variable {F : FTy → Type} [FloatOps F]

/-- @main's 39 operations, in order. -/
abbrev ops : List (HloOp τ sig (Elt F)) :=
  [ nullary main_call0_cst (constant S_ .f32 0xFF800000#32 : (⟨S_, .f32⟩ : BufTy).Contents (Elt F)),
    binary main_arg0 main_call0_cst main_call0_v0 ((fun x v => Host.reduce FloatOps.maximumf x v reducesTo_S4x512x1024_S4x512_d2 h_S_) : (⟨S4x512x1024, .f32⟩ : BufTy).Contents (Elt F) → (⟨S_, .f32⟩ : BufTy).Contents (Elt F) → (⟨S4x512, .f32⟩ : BufTy).Contents (Elt F)),
    nullary main_call0_cst_0 (constant S_ .f32 0xFF800000#32 : (⟨S_, .f32⟩ : BufTy).Contents (Elt F)),
    unary main_call0_cst_0 main_call0_v1 ((broadcastInDim S4x512 ![] bcast_S_S4x512) : (⟨S_, .f32⟩ : BufTy).Contents (Elt F) → (⟨S4x512, .f32⟩ : BufTy).Contents (Elt F)),
    binary main_call0_v1 main_call0_v0 main_call0_v2 (maximumf : (⟨S4x512, .f32⟩ : BufTy).Contents (Elt F) → (⟨S4x512, .f32⟩ : BufTy).Contents (Elt F) → (⟨S4x512, .f32⟩ : BufTy).Contents (Elt F)),
    unary main_call0_v2 main_call0_v3 ((broadcastInDim S4x512x1 ![0, 1] bcast_S4x512_S4x512x1_0_1) : (⟨S4x512, .f32⟩ : BufTy).Contents (Elt F) → (⟨S4x512x1, .f32⟩ : BufTy).Contents (Elt F)),
    unary main_call0_v3 main_call0_v4 ((broadcastInDim S4x512x1024 ![0, 1, 2] bcast_S4x512x1_S4x512x1024_0_1_2) : (⟨S4x512x1, .f32⟩ : BufTy).Contents (Elt F) → (⟨S4x512x1024, .f32⟩ : BufTy).Contents (Elt F)),
    binary main_arg0 main_call0_v4 main_call0_v5 (subf : (⟨S4x512x1024, .f32⟩ : BufTy).Contents (Elt F) → (⟨S4x512x1024, .f32⟩ : BufTy).Contents (Elt F) → (⟨S4x512x1024, .f32⟩ : BufTy).Contents (Elt F)),
    unary main_call0_v5 main_call0_v6 (Host.exp : (⟨S4x512x1024, .f32⟩ : BufTy).Contents (Elt F) → (⟨S4x512x1024, .f32⟩ : BufTy).Contents (Elt F)),
    nullary main_call0_cst_1 (constant S_ .f32 0x00000000#32 : (⟨S_, .f32⟩ : BufTy).Contents (Elt F)),
    binary main_call0_v6 main_call0_cst_1 main_call0_v7 ((fun x v => Host.reduceAdd x v reducesTo_S4x512x1024_S4x512_d2 h_S_) : (⟨S4x512x1024, .f32⟩ : BufTy).Contents (Elt F) → (⟨S_, .f32⟩ : BufTy).Contents (Elt F) → (⟨S4x512, .f32⟩ : BufTy).Contents (Elt F)),
    unary main_call0_v7 main_call0_v8 ((broadcastInDim S4x512x1 ![0, 1] bcast_S4x512_S4x512x1_0_1) : (⟨S4x512, .f32⟩ : BufTy).Contents (Elt F) → (⟨S4x512x1, .f32⟩ : BufTy).Contents (Elt F)),
    unary main_call0_v8 main_call0_v9 (Host.log : (⟨S4x512x1, .f32⟩ : BufTy).Contents (Elt F) → (⟨S4x512x1, .f32⟩ : BufTy).Contents (Elt F)),
    unary main_call0_v9 main_call0_v10 ((broadcastInDim S4x512x1024 ![0, 1, 2] bcast_S4x512x1_S4x512x1024_0_1_2) : (⟨S4x512x1, .f32⟩ : BufTy).Contents (Elt F) → (⟨S4x512x1024, .f32⟩ : BufTy).Contents (Elt F)),
    binary main_call0_v5 main_call0_v10 main_v0 (subf : (⟨S4x512x1024, .f32⟩ : BufTy).Contents (Elt F) → (⟨S4x512x1024, .f32⟩ : BufTy).Contents (Elt F) → (⟨S4x512x1024, .f32⟩ : BufTy).Contents (Elt F)),
    nullary main_call1_cst (constant S_ .f32 0xFF800000#32 : (⟨S_, .f32⟩ : BufTy).Contents (Elt F)),
    binary main_arg1 main_call1_cst main_call1_v0 ((fun x v => Host.reduce FloatOps.maximumf x v reducesTo_S4x64x1024_S4x64_d2 h_S_) : (⟨S4x64x1024, .f32⟩ : BufTy).Contents (Elt F) → (⟨S_, .f32⟩ : BufTy).Contents (Elt F) → (⟨S4x64, .f32⟩ : BufTy).Contents (Elt F)),
    nullary main_call1_cst_0 (constant S_ .f32 0xFF800000#32 : (⟨S_, .f32⟩ : BufTy).Contents (Elt F)),
    unary main_call1_cst_0 main_call1_v1 ((broadcastInDim S4x64 ![] bcast_S_S4x64) : (⟨S_, .f32⟩ : BufTy).Contents (Elt F) → (⟨S4x64, .f32⟩ : BufTy).Contents (Elt F)),
    binary main_call1_v1 main_call1_v0 main_call1_v2 (maximumf : (⟨S4x64, .f32⟩ : BufTy).Contents (Elt F) → (⟨S4x64, .f32⟩ : BufTy).Contents (Elt F) → (⟨S4x64, .f32⟩ : BufTy).Contents (Elt F)),
    unary main_call1_v2 main_call1_v3 ((broadcastInDim S4x64x1 ![0, 1] bcast_S4x64_S4x64x1_0_1) : (⟨S4x64, .f32⟩ : BufTy).Contents (Elt F) → (⟨S4x64x1, .f32⟩ : BufTy).Contents (Elt F)),
    unary main_call1_v3 main_call1_v4 ((broadcastInDim S4x64x1024 ![0, 1, 2] bcast_S4x64x1_S4x64x1024_0_1_2) : (⟨S4x64x1, .f32⟩ : BufTy).Contents (Elt F) → (⟨S4x64x1024, .f32⟩ : BufTy).Contents (Elt F)),
    binary main_arg1 main_call1_v4 main_call1_v5 (subf : (⟨S4x64x1024, .f32⟩ : BufTy).Contents (Elt F) → (⟨S4x64x1024, .f32⟩ : BufTy).Contents (Elt F) → (⟨S4x64x1024, .f32⟩ : BufTy).Contents (Elt F)),
    unary main_call1_v5 main_call1_v6 (Host.exp : (⟨S4x64x1024, .f32⟩ : BufTy).Contents (Elt F) → (⟨S4x64x1024, .f32⟩ : BufTy).Contents (Elt F)),
    nullary main_call1_cst_1 (constant S_ .f32 0x00000000#32 : (⟨S_, .f32⟩ : BufTy).Contents (Elt F)),
    binary main_call1_v6 main_call1_cst_1 main_call1_v7 ((fun x v => Host.reduceAdd x v reducesTo_S4x64x1024_S4x64_d2 h_S_) : (⟨S4x64x1024, .f32⟩ : BufTy).Contents (Elt F) → (⟨S_, .f32⟩ : BufTy).Contents (Elt F) → (⟨S4x64, .f32⟩ : BufTy).Contents (Elt F)),
    unary main_call1_v7 main_call1_v8 ((broadcastInDim S4x64x1 ![0, 1] bcast_S4x64_S4x64x1_0_1) : (⟨S4x64, .f32⟩ : BufTy).Contents (Elt F) → (⟨S4x64x1, .f32⟩ : BufTy).Contents (Elt F)),
    unary main_call1_v8 main_call1_v9 (Host.log : (⟨S4x64x1, .f32⟩ : BufTy).Contents (Elt F) → (⟨S4x64x1, .f32⟩ : BufTy).Contents (Elt F)),
    unary main_call1_v9 main_call1_v10 ((broadcastInDim S4x64x1024 ![0, 1, 2] bcast_S4x64x1_S4x64x1024_0_1_2) : (⟨S4x64x1, .f32⟩ : BufTy).Contents (Elt F) → (⟨S4x64x1024, .f32⟩ : BufTy).Contents (Elt F)),
    binary main_call1_v5 main_call1_v10 main_v1 (subf : (⟨S4x64x1024, .f32⟩ : BufTy).Contents (Elt F) → (⟨S4x64x1024, .f32⟩ : BufTy).Contents (Elt F) → (⟨S4x64x1024, .f32⟩ : BufTy).Contents (Elt F)),
    nullary main_cst (constant S_ .f32 0x00000000#32),
    unary main_cst main_v2 (broadcastInDim S4x64x1 ![] bcast_S_S4x64x1 : (⟨S_, .f32⟩ : BufTy).Contents (Elt F) → (⟨S4x64x1, .f32⟩ : BufTy).Contents (Elt F)),
    unary main_v1 main_v3 ((extractStridedSlice S4x64x1023 ![0, 0, 1] · slices_S4x64x1024_S4x64x1023_0_0_1) : (⟨S4x64x1024, .f32⟩ : BufTy).Contents (Elt F) → (⟨S4x64x1023, .f32⟩ : BufTy).Contents (Elt F)),
    binary main_v2 main_v3 main_v4 ((fun a b => concatenate S4x64x1024 2 [⟨S4x64x1, a⟩, ⟨S4x64x1023, b⟩] concatenates_S4x64x1_S4x64x1023_S4x64x1024_d2) : (⟨S4x64x1, .f32⟩ : BufTy).Contents (Elt F) → (⟨S4x64x1023, .f32⟩ : BufTy).Contents (Elt F) → (⟨S4x64x1024, .f32⟩ : BufTy).Contents (Elt F)),
    unary main_v0 main_v5 (broadcastInDim S4x512x1x1024 ![0, 1, 3] bcast_S4x512x1024_S4x512x1x1024_0_1_3 : (⟨S4x512x1024, .f32⟩ : BufTy).Contents (Elt F) → (⟨S4x512x1x1024, .f32⟩ : BufTy).Contents (Elt F)),
    unary main_v4 main_v6 (broadcastInDim S4x1x64x1024 ![0, 2, 3] bcast_S4x64x1024_S4x1x64x1024_0_2_3 : (⟨S4x64x1024, .f32⟩ : BufTy).Contents (Elt F) → (⟨S4x1x64x1024, .f32⟩ : BufTy).Contents (Elt F)),
    unary main_v5 main_v7 (broadcastInDim S4x512x64x1024 ![0, 1, 2, 3] bcast_S4x512x1x1024_S4x512x64x1024_0_1_2_3 : (⟨S4x512x1x1024, .f32⟩ : BufTy).Contents (Elt F) → (⟨S4x512x64x1024, .f32⟩ : BufTy).Contents (Elt F)),
    unary main_v6 main_v8 (broadcastInDim S4x512x64x1024 ![0, 1, 2, 3] bcast_S4x1x64x1024_S4x512x64x1024_0_1_2_3 : (⟨S4x1x64x1024, .f32⟩ : BufTy).Contents (Elt F) → (⟨S4x512x64x1024, .f32⟩ : BufTy).Contents (Elt F)),
    binary main_v7 main_v8 main_v9 (addf : (⟨S4x512x64x1024, .f32⟩ : BufTy).Contents (Elt F) → (⟨S4x512x64x1024, .f32⟩ : BufTy).Contents (Elt F) → (⟨S4x512x64x1024, .f32⟩ : BufTy).Contents (Elt F)) ]

/-- What the result buffer holds after the 39 operations, as one term of the two argument arrays. -/
abbrev result (x0 : (⟨S4x512x1024, .f32⟩ : BufTy).Contents (Elt F)) (x1 : (⟨S4x64x1024, .f32⟩ : BufTy).Contents (Elt F)) : (⟨S4x512x64x1024, .f32⟩ : BufTy).Contents (Elt F) :=
  addf (broadcastInDim S4x512x64x1024 ![0, 1, 2, 3] bcast_S4x512x1x1024_S4x512x64x1024_0_1_2_3 (broadcastInDim S4x512x1x1024 ![0, 1, 3] bcast_S4x512x1024_S4x512x1x1024_0_1_3 (subf (subf x0 (broadcastInDim S4x512x1024 ![0, 1, 2] bcast_S4x512x1_S4x512x1024_0_1_2 (broadcastInDim S4x512x1 ![0, 1] bcast_S4x512_S4x512x1_0_1 (maximumf (broadcastInDim S4x512 ![] bcast_S_S4x512 (constant S_ .f32 0xFF800000#32)) (Host.reduce FloatOps.maximumf x0 (constant S_ .f32 0xFF800000#32) reducesTo_S4x512x1024_S4x512_d2 h_S_))))) (broadcastInDim S4x512x1024 ![0, 1, 2] bcast_S4x512x1_S4x512x1024_0_1_2 (Host.log (broadcastInDim S4x512x1 ![0, 1] bcast_S4x512_S4x512x1_0_1 (Host.reduceAdd (Host.exp (subf x0 (broadcastInDim S4x512x1024 ![0, 1, 2] bcast_S4x512x1_S4x512x1024_0_1_2 (broadcastInDim S4x512x1 ![0, 1] bcast_S4x512_S4x512x1_0_1 (maximumf (broadcastInDim S4x512 ![] bcast_S_S4x512 (constant S_ .f32 0xFF800000#32)) (Host.reduce FloatOps.maximumf x0 (constant S_ .f32 0xFF800000#32) reducesTo_S4x512x1024_S4x512_d2 h_S_)))))) (constant S_ .f32 0x00000000#32) reducesTo_S4x512x1024_S4x512_d2 h_S_))))))) (broadcastInDim S4x512x64x1024 ![0, 1, 2, 3] bcast_S4x1x64x1024_S4x512x64x1024_0_1_2_3 (broadcastInDim S4x1x64x1024 ![0, 2, 3] bcast_S4x64x1024_S4x1x64x1024_0_2_3 (concatenate S4x64x1024 2 [⟨S4x64x1, (broadcastInDim S4x64x1 ![] bcast_S_S4x64x1 (constant S_ .f32 0x00000000#32))⟩, ⟨S4x64x1023, (extractStridedSlice S4x64x1023 ![0, 0, 1] (subf (subf x1 (broadcastInDim S4x64x1024 ![0, 1, 2] bcast_S4x64x1_S4x64x1024_0_1_2 (broadcastInDim S4x64x1 ![0, 1] bcast_S4x64_S4x64x1_0_1 (maximumf (broadcastInDim S4x64 ![] bcast_S_S4x64 (constant S_ .f32 0xFF800000#32)) (Host.reduce FloatOps.maximumf x1 (constant S_ .f32 0xFF800000#32) reducesTo_S4x64x1024_S4x64_d2 h_S_))))) (broadcastInDim S4x64x1024 ![0, 1, 2] bcast_S4x64x1_S4x64x1024_0_1_2 (Host.log (broadcastInDim S4x64x1 ![0, 1] bcast_S4x64_S4x64x1_0_1 (Host.reduceAdd (Host.exp (subf x1 (broadcastInDim S4x64x1024 ![0, 1, 2] bcast_S4x64x1_S4x64x1024_0_1_2 (broadcastInDim S4x64x1 ![0, 1] bcast_S4x64_S4x64x1_0_1 (maximumf (broadcastInDim S4x64 ![] bcast_S_S4x64 (constant S_ .f32 0xFF800000#32)) (Host.reduce FloatOps.maximumf x1 (constant S_ .f32 0xFF800000#32) reducesTo_S4x64x1024_S4x64_d2 h_S_)))))) (constant S_ .f32 0x00000000#32) reducesTo_S4x64x1024_S4x64_d2 h_S_))))) slices_S4x64x1024_S4x64x1023_0_0_1)⟩] concatenates_S4x64x1_S4x64x1023_S4x64x1024_d2)))

end Cert.ReferenceIdeal.HostOps

end
-- ==== Proof.RefRun.lean ====
/-
  The reference program's run, read back. Its @main is a straight line of 39 host operations (the list `HostOps.ops`: the
  two log-softmax calls stand as their operations in the calls' places), none of them writes an argument buffer, and none
  is scoped; so every weakly fair execution of @main terminates, and each buffer ends holding the fold of the operations
  over the launch contents. At the result buffer that fold is `HostOps.result` of the two argument arrays — the
  operations composed in program order —, and at an argument buffer it is what was launched.
-/
import proofs.«138528_j22462678958222_2_alg».proof.Proof.RefOps

noncomputable section

namespace Cert.ReferenceIdeal.HostRun

open Cert.ReferenceIdeal Cert.ReferenceIdeal.Gen Cert.ReferenceIdeal.HostOps Idealize.ShloMosaic Idealize.ShloMosaic.TcCoe Idealize.SL.Sem Idealize.ShloMosaic.StableHlo

variable {F : FTy → Type} [FloatOps F]

-- the two reduces are kept folded while the two sides are compared: the comparison only has to see that a called
-- function's operation, stated at its tensor types and moved to the buffers' own types, is the listed operation
attribute [local irreducible] Host.reduce Host.reduceAdd in
/-- @main is the sequence of the listed operations: a called function's body is its operations at the call's buffers. -/
theorem main_eq (c : Dev nD) : main (F := F) c = seq ops := rfl

/-- No buffer of the program is scoped, and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., unary_bufs_sub .., binary_bufs_sub ..,
    nullary_bufs_sub .., unary_bufs_sub .., unary_bufs_sub .., binary_bufs_sub .., unary_bufs_sub .., unary_bufs_sub ..,
    unary_bufs_sub .., unary_bufs_sub .., binary_bufs_sub ..⟩

set_option maxHeartbeats 2000000 in
/-- On every device, from any memory with zero counters: every weakly fair execution of @main terminates with the
    result buffer at the operations' composition over the two argument arrays, and the argument arrays as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v9).trans (by
        -- one pass computes every operation's result but for the two pieces of the concatenation, which sit as second
        -- components of dependent pairs; those two chains are then rewritten operation by operation
        after_results_simp
        repeat (first
          | rw [nullary_result] | rw [unary_result] | rw [binary_result]
          | (rw [nullary_result_ne]; rotate_left; decide)
          | (rw [unary_result_ne]; rotate_left; decide)
          | (rw [binary_result_ne]; rotate_left; decide))),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.HostRun

end
-- ==== Proof.RefJoint.lean ====
/-
  The reference's result is `joint` of its two arguments.

  The reference takes an array `x` over [B, R, 1024] to its log-softmax along the last axis in the same steps as the
  kernel, written with the host's operations: the row maximum from −∞ (a reduce), its maximum with −∞ once more (the
  identity: −∞ is the least extended real), broadcast back over a new unit axis and along the lanes, subtracted; the
  exponentials summed from 0 (`0 + s = s`), the logarithm, broadcast back, subtracted. Read at (b, r, k) this is
  `logSoftmax` of row (b, r) at lane k. The second result's lane 0 is then replaced by the constant 0 — a column of
  zeros joined in front of lanes 1 … 1023 —, both results are broadcast to [4, 512, 64, 1024] and added.
-/
import proofs.«138528_j22462678958222_2_alg».proof.Proof.RefOps
import proofs.«138528_j22462678958222_2_alg».proof.Proof.JointSpec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.JointSpec Idealize.ShloMosaic Idealize.ShloMosaic.ValueIdx

/-- A coordinate below n is itself unless n = 1, where it is 0: what a broadcast asks of each operand axis. -/
theorem val_if_one {n : Nat} (i : Fin n) : i.val = if n = 1 then 0 else i.val := by
  by_cases h : n = 1
  · rw [if_pos h]; have := i.isLt; omega
  · rw [if_neg h]

/-! ## Reductions along the last axis of a [B, R, 1024] array -/

/-- Row (b, r) with lane k put back on the last axis is the index (b, r, k). -/
theorem lift_rows {B R : Nat} (h : (⟨3, ![B, R, 1024]⟩ : Shape).Reduces [2] ⟨2, ![B, R]⟩) (b : Fin B) (r : Fin R)
    (k : Fin ((⟨3, ![B, R, 1024]⟩ : Shape).size 2)) : h.lift (ix2 b r) k = ix3 b r (⟨k.val, k.isLt⟩ : Fin 1024) := by
  funext c; apply Fin.ext
  fin_cases c <;> rfl

/-- −∞ is the least extended real. -/
theorem max_negInf (y : EReal) : max (Ideal.ofBits .f32 0xFF800000#32) y = y := by
  simp [Ideal.ofBits, Ideal.ieee]

/-- The host's row maximum from −∞, and its maximum with −∞ again, at row (b, r): the largest entry of the row. -/
theorem hostRowMax {B R : Nat} (x : FVec Ideal ⟨3, ![B, R, 1024]⟩ .f32)
    (h' : (⟨3, ![B, R, 1024]⟩ : Shape).ReducesTo [2] ⟨2, ![B, R]⟩) (h : (⟨3, ![B, R, 1024]⟩ : Shape).Reduces [2] ⟨2, ![B, R]⟩)
    (hu : 0 < (⟨0, ![]⟩ : Shape).numel) (b : Fin B) (r : Fin R) :
    max (Ideal.ofBits .f32 0xFF800000#32)
        (Host.reduce FloatOps.maximumf x (constant (F := Ideal) ⟨0, ![]⟩ .f32 0xFF800000#32) h' hu (ix2 b r))
      = rowMax (fun k => x (ix3 b r k)) := by
  rw [max_negInf, Host.reduce_eq_fold_single FloatOps.maximumf x _ h' h hu]
  have hf : (x ∘ h.lift (ix2 b r)) = fun k : Fin 1024 => x (ix3 b r k) :=
    funext fun k => congrArg x (lift_rows h b r k)
  exact congrArg (fun f => Finset.fold max (Ideal.ofBits .f32 0xFF800000#32) f (Finset.univ : Finset (Fin 1024))) hf

/-- The host's row sum from 0, at row (b, r): the sum of the row's entries. -/
theorem hostRowSum {B R : Nat} (x : FVec Ideal ⟨3, ![B, R, 1024]⟩ .f32)
    (h' : (⟨3, ![B, R, 1024]⟩ : Shape).ReducesTo [2] ⟨2, ![B, R]⟩) (h : (⟨3, ![B, R, 1024]⟩ : Shape).Reduces [2] ⟨2, ![B, R]⟩)
    (hu : 0 < (⟨0, ![]⟩ : Shape).numel) (b : Fin B) (r : Fin R) :
    Host.reduceAdd x (constant (F := Ideal) ⟨0, ![]⟩ .f32 0x00000000#32) h' hu (ix2 b r) = ∑ k : Fin 1024, x (ix3 b r k) := by
  simp only [Host.reduceAdd, Ideal.hostReduceAdd_def]
  rw [Ideal.hostReduceAdd_single h' h]
  show Ideal.ofBits .f32 0x00000000#32 + _ = _
  rw [Ideal.ofBits_zero_f32, zero_add]
  exact Finset.sum_congr rfl fun k _ => congrArg x (lift_rows h b r k)

/-- One number per row, broadcast over a new unit axis and then along the lanes, read at (b, r, k): row (b, r)'s number. -/
theorem keepdims_host {α : Type} {B R : Nat} (w : (⟨2, ![B, R]⟩ : Shape).Idx → α)
    (b2 : (⟨2, ![B, R]⟩ : Shape).BroadcastsInDim ⟨3, ![B, R, 1]⟩ ![0, 1])
    (b3 : (⟨3, ![B, R, 1]⟩ : Shape).BroadcastsInDim ⟨3, ![B, R, 1024]⟩ ![0, 1, 2]) (b : Fin B) (r : Fin R) (k : Fin 1024) :
    broadcastInDim ⟨3, ![B, R, 1024]⟩ ![0, 1, 2] b3 (broadcastInDim ⟨3, ![B, R, 1]⟩ ![0, 1] b2 w) (ix3 b r k) = w (ix2 b r) := by
  refine (broadcastInDim_apply _ b3 _ (ix3 b r k) (ix3 b r (⟨0, Nat.one_pos⟩ : Fin 1)) (fun c => ?_)).trans ?_
  · match c with
    | ⟨0, _⟩ => exact val_if_one b
    | ⟨1, _⟩ => exact val_if_one r
    | ⟨2, _⟩ => show 0 = if (1 : Nat) = 1 then 0 else k.val; rw [if_pos rfl]
  · refine broadcastInDim_apply _ b2 w _ (ix2 b r) (fun c => ?_)
    match c with
    | ⟨0, _⟩ => exact val_if_one b
    | ⟨1, _⟩ => exact val_if_one r

/-! ## The host's log-softmax of an array -/

variable {B R : Nat} (x : FVec Ideal ⟨3, ![B, R, 1024]⟩ .f32)
  (h' : (⟨3, ![B, R, 1024]⟩ : Shape).ReducesTo [2] ⟨2, ![B, R]⟩)
  (hu : 0 < (⟨0, ![]⟩ : Shape).numel)
  (b1 : (⟨0, ![]⟩ : Shape).BroadcastsInDim ⟨2, ![B, R]⟩ ![])
  (b2 : (⟨2, ![B, R]⟩ : Shape).BroadcastsInDim ⟨3, ![B, R, 1]⟩ ![0, 1])
  (b3 : (⟨3, ![B, R, 1]⟩ : Shape).BroadcastsInDim ⟨3, ![B, R, 1024]⟩ ![0, 1, 2])

/-- The array less its rows' largest entries. -/
def hostShifted : FVec Ideal ⟨3, ![B, R, 1024]⟩ .f32 :=
  subf x (broadcastInDim ⟨3, ![B, R, 1024]⟩ ![0, 1, 2] b3 (broadcastInDim ⟨3, ![B, R, 1]⟩ ![0, 1] b2
    (maximumf (broadcastInDim ⟨2, ![B, R]⟩ ![] b1 (constant (F := Ideal) ⟨0, ![]⟩ .f32 0xFF800000#32))
      (Host.reduce FloatOps.maximumf x (constant (F := Ideal) ⟨0, ![]⟩ .f32 0xFF800000#32) h' hu))))

/-- The array's log-softmax along the last axis, as the reference spells it. -/
def hostLsm : FVec Ideal ⟨3, ![B, R, 1024]⟩ .f32 :=
  subf (hostShifted x h' hu b1 b2 b3)
    (broadcastInDim ⟨3, ![B, R, 1024]⟩ ![0, 1, 2] b3 (Host.log (broadcastInDim ⟨3, ![B, R, 1]⟩ ![0, 1] b2
      (Host.reduceAdd (Host.exp (hostShifted x h' hu b1 b2 b3)) (constant (F := Ideal) ⟨0, ![]⟩ .f32 0x00000000#32) h' hu))))

theorem hostShifted_apply (h : (⟨3, ![B, R, 1024]⟩ : Shape).Reduces [2] ⟨2, ![B, R]⟩) (b : Fin B) (r : Fin R) (k : Fin 1024) :
    hostShifted x h' hu b1 b2 b3 (ix3 b r k) = x (ix3 b r k) - rowMax (fun j => x (ix3 b r j)) :=
  congrArg (x (ix3 b r k) - ·) ((keepdims_host _ b2 b3 b r k).trans (hostRowMax x h' h hu b r))

theorem hostLsm_apply (h : (⟨3, ![B, R, 1024]⟩ : Shape).Reduces [2] ⟨2, ![B, R]⟩) (b : Fin B) (r : Fin R) (k : Fin 1024) :
    hostLsm x h' hu b1 b2 b3 (ix3 b r k) = logSoftmax (fun j => x (ix3 b r j)) k := by
  show hostShifted x h' hu b1 b2 b3 (ix3 b r k)
      - broadcastInDim ⟨3, ![B, R, 1024]⟩ ![0, 1, 2] b3 (broadcastInDim ⟨3, ![B, R, 1]⟩ ![0, 1] b2
          (fun i => Ideal.log (Host.reduceAdd (Host.exp (hostShifted x h' hu b1 b2 b3))
            (constant (F := Ideal) ⟨0, ![]⟩ .f32 0x00000000#32) h' hu i))) (ix3 b r k) = _
  rw [hostShifted_apply x h' hu b1 b2 b3 h, keepdims_host, hostRowSum _ h' h hu]
  refine congrArg (fun s => (x (ix3 b r k) - rowMax fun j => x (ix3 b r j)) - Ideal.log s) (Finset.sum_congr rfl fun j _ => ?_)
  show Ideal.exp (hostShifted x h' hu b1 b2 b3 (ix3 b r j)) = _
  rw [hostShifted_apply x h' hu b1 b2 b3 h]

/-! ## The tail: blanking lane 0, and the two broadcasts to [4, 512, 64, 1024] -/

/-- A [4, 512, 1024] array broadcast over a new unit axis 2 and then along it, read at (b, t, u, v): entry (b, t, v). -/
theorem spread_t {α : Type} (y : (⟨3, ![4, 512, 1024]⟩ : Shape).Idx → α)
    (ha : (⟨3, ![4, 512, 1024]⟩ : Shape).BroadcastsInDim ⟨4, ![4, 512, 1, 1024]⟩ ![0, 1, 3])
    (hb : (⟨4, ![4, 512, 1, 1024]⟩ : Shape).BroadcastsInDim ⟨4, ![4, 512, 64, 1024]⟩ ![0, 1, 2, 3])
    (b : Fin 4) (t : Fin 512) (u : Fin 64) (v : Fin 1024) :
    broadcastInDim ⟨4, ![4, 512, 64, 1024]⟩ ![0, 1, 2, 3] hb (broadcastInDim ⟨4, ![4, 512, 1, 1024]⟩ ![0, 1, 3] ha y) (ix4 b t u v)
      = y (ix3 b t v) := by
  refine (broadcastInDim_apply _ hb _ (ix4 b t u v) (ix4 b t (⟨0, Nat.one_pos⟩ : Fin 1) v) (fun c => ?_)).trans ?_
  · match c with
    | ⟨0, _⟩ => exact val_if_one b
    | ⟨1, _⟩ => exact val_if_one t
    | ⟨2, _⟩ => show 0 = if (1 : Nat) = 1 then 0 else u.val; rw [if_pos rfl]
    | ⟨3, _⟩ => exact val_if_one v
  · refine broadcastInDim_apply _ ha y _ (ix3 b t v) (fun c => ?_)
    match c with
    | ⟨0, _⟩ => exact val_if_one b
    | ⟨1, _⟩ => exact val_if_one t
    | ⟨2, _⟩ => exact val_if_one v

/-- A [4, 64, 1024] array broadcast over a new unit axis 1 and then along it, read at (b, t, u, v): entry (b, u, v). -/
theorem spread_p {α : Type} (y : (⟨3, ![4, 64, 1024]⟩ : Shape).Idx → α)
    (ha : (⟨3, ![4, 64, 1024]⟩ : Shape).BroadcastsInDim ⟨4, ![4, 1, 64, 1024]⟩ ![0, 2, 3])
    (hb : (⟨4, ![4, 1, 64, 1024]⟩ : Shape).BroadcastsInDim ⟨4, ![4, 512, 64, 1024]⟩ ![0, 1, 2, 3])
    (b : Fin 4) (t : Fin 512) (u : Fin 64) (v : Fin 1024) :
    broadcastInDim ⟨4, ![4, 512, 64, 1024]⟩ ![0, 1, 2, 3] hb (broadcastInDim ⟨4, ![4, 1, 64, 1024]⟩ ![0, 2, 3] ha y) (ix4 b t u v)
      = y (ix3 b u v) := by
  refine (broadcastInDim_apply _ hb _ (ix4 b t u v) (ix4 b (⟨0, Nat.one_pos⟩ : Fin 1) u v) (fun c => ?_)).trans ?_
  · match c with
    | ⟨0, _⟩ => exact val_if_one b
    | ⟨1, _⟩ => show 0 = if (1 : Nat) = 1 then 0 else t.val; rw [if_pos rfl]
    | ⟨2, _⟩ => exact val_if_one u
    | ⟨3, _⟩ => exact val_if_one v
  · refine broadcastInDim_apply _ ha y _ (ix3 b u v) (fun c => ?_)
    match c with
    | ⟨0, _⟩ => exact val_if_one b
    | ⟨1, _⟩ => exact val_if_one u
    | ⟨2, _⟩ => exact val_if_one v

/-- A column of zeros joined in front of lanes 1 … 1023 of a [4, 64, 1024] array, read at (b, u, v): the constant 0 at
    v = 0, the array's own entry otherwise. -/
theorem blank_host (y : FVec Ideal ⟨3, ![4, 64, 1024]⟩ .f32)
    (hz : (⟨0, ![]⟩ : Shape).BroadcastsInDim ⟨3, ![4, 64, 1]⟩ ![])
    (hs : (⟨3, ![4, 64, 1024]⟩ : Shape).Slices ![0, 0, 1] ⟨3, ![4, 64, 1023]⟩)
    (hcat : Shape.Concatenates [(⟨3, ![4, 64, 1]⟩ : Shape), ⟨3, ![4, 64, 1023]⟩] ⟨3, ![4, 64, 1024]⟩ 2)
    (b : Fin 4) (u : Fin 64) (v : Fin 1024) :
    concatenate ⟨3, ![4, 64, 1024]⟩ 2
        [⟨⟨3, ![4, 64, 1]⟩, broadcastInDim ⟨3, ![4, 64, 1]⟩ ![] hz (constant (F := Ideal) ⟨0, ![]⟩ .f32 0x00000000#32)⟩,
         ⟨⟨3, ![4, 64, 1023]⟩, extractStridedSlice ⟨3, ![4, 64, 1023]⟩ ![0, 0, 1] y hs⟩] hcat (ix3 b u v)
      = if v.val = 0 then Ideal.ofBits .f32 0x00000000#32 else y (ix3 b u v) := by
  by_cases h0 : v.val = 0
  · rw [if_pos h0]
    refine (concatenate_pair_apply_left 2 _ _ hcat (ix3 b u v) rfl (ix3 b u (⟨0, Nat.one_pos⟩ : Fin 1)) (fun c => ?_)).trans rfl
    match c with
    | ⟨0, _⟩ => rfl
    | ⟨1, _⟩ => rfl
    | ⟨2, _⟩ => exact h0.symm
  · rw [if_neg h0]
    have hv := v.isLt
    refine (concatenate_pair_apply_right 2 _ _ hcat (ix3 b u v) rfl rfl
      (ix3 b u (⟨v.val - 1, by omega⟩ : Fin 1023)) (fun c hc => ?_) ?_).trans ?_
    · match c with
      | ⟨0, _⟩ => rfl
      | ⟨1, _⟩ => rfl
      | ⟨2, _⟩ => exact absurd rfl hc
    · show (v.val - 1) + 1 = v.val
      omega
    · refine extractStridedSlice_apply ![0, 0, 1] y hs _ (ix3 b u v) (fun c => ?_)
      match c with
      | ⟨0, _⟩ => show b.val = 0 + b.val; omega
      | ⟨1, _⟩ => show u.val = 0 + u.val; omega
      | ⟨2, _⟩ => show v.val = 1 + (v.val - 1); omega

/-! ## The reference's result -/

/-- The reference's composed result term is `joint` of the two argument arrays. -/
theorem result_eq (x0 : FVec Ideal S4x512x1024 .f32) (x1 : FVec Ideal S4x64x1024 .f32) :
    HostOps.result (F := Ideal) x0 x1 = joint x0 x1 := by
  funext i
  obtain ⟨b, t, u, v, rfl⟩ : ∃ (b : Fin 4) (t : Fin 512) (u : Fin 64) (v : Fin 1024), i = ix4 b t u v :=
    ⟨i 0, i 1, i 2, i 3, eq_ix4 i⟩
  rw [joint_ix4]
  show broadcastInDim S4x512x64x1024 ![0, 1, 2, 3] _ (broadcastInDim S4x512x1x1024 ![0, 1, 3] _ (hostLsm x0 _ _ _ _ _)) (ix4 b t u v)
      + broadcastInDim S4x512x64x1024 ![0, 1, 2, 3] _ (broadcastInDim S4x1x64x1024 ![0, 2, 3] _
          (concatenate S4x64x1024 2
            [⟨S4x64x1, broadcastInDim S4x64x1 ![] _ (constant (F := Ideal) S_ .f32 0x00000000#32)⟩,
             ⟨S4x64x1023, extractStridedSlice S4x64x1023 ![0, 0, 1] (hostLsm x1 _ _ _ _ _) _⟩] _)) (ix4 b t u v) = _
  rw [spread_t, spread_p, blank_host, hostLsm_apply x0 _ _ _ _ _ (by decide), hostLsm_apply x1 _ _ _ _ _ (by decide)]
  rfl

end Cert.ReferenceIdeal.RefValue

end
-- ==== Proof.lean ====
/-
  The certificate of the joint log-softmax kernel against its jnp reference.

  Both programs compute, at (b, t, u, v) of a [4, 512, 64, 1024] array,
      logSoftmax(tn[b, t, ·])(v) + (if v = 0 then 0 else logSoftmax(pn[b, u, ·])(v)),
  where logSoftmax of a row of 1024 extended reals is the entry less the row's largest, less the logarithm of the sum of
  the exponentials of the entries so shifted (Proof/JointSpec.lean, `joint`). The kernel computes it block by block on a
  4 × 16 grid — 32 rows of the first argument against all 64 rows of the second per point — with lane reductions and a
  select on the lane number for the blanked column (Proof/KernelBody.lean: the body's value at an index;
  Proof/KernelArray.lean: the blocks tile the array). The reference computes it with whole-array host operations, the
  blanked column as a zero column joined in front of lanes 1 … 1023 (Proof/RefOps.lean, Proof/RefRun.lean: its run;
  Proof/RefJoint.lean: its value at an index). The two sides meet term for term: the same shift, the same exponential,
  sum, logarithm and subtractions; the reference's extra maximum with −∞ is the identity on the extended reals and its
  sum's initial 0 adds nothing. No step uses that the inputs are finite.

  The frames of the two kernel programs are the generated ones; the reference's frame is its run with the result
  forgotten; the idealization rewrote nothing, so `preserves` is `True`.
-/
import proofs.«138528_j22462678958222_2_alg».proof.Defs
import proofs.«138528_j22462678958222_2_alg».proof.Proof.Gen.Kernel
import proofs.«138528_j22462678958222_2_alg».proof.Proof.Gen.Kernel.Skeleton
import proofs.«138528_j22462678958222_2_alg».proof.Proof.Gen.Kernel.Launch
import proofs.«138528_j22462678958222_2_alg».proof.Proof.Gen.Kernel.Points
import proofs.«138528_j22462678958222_2_alg».proof.Proof.Gen.Kernel.Frame
import proofs.«138528_j22462678958222_2_alg».proof.Proof.Gen.KernelIdeal
import proofs.«138528_j22462678958222_2_alg».proof.Proof.Gen.KernelIdeal.Skeleton
import proofs.«138528_j22462678958222_2_alg».proof.Proof.Gen.KernelIdeal.Launch
import proofs.«138528_j22462678958222_2_alg».proof.Proof.Gen.KernelIdeal.Points
import proofs.«138528_j22462678958222_2_alg».proof.Proof.Gen.KernelIdeal.Frame
import proofs.«138528_j22462678958222_2_alg».proof.Proof.Gen.ReferenceIdeal
import proofs.«138528_j22462678958222_2_alg».proof.Proof.Gen.Pre_finite_inputs
import proofs.«138528_j22462678958222_2_alg».proof.Proof.Gen.KernelIdeal.Value
import proofs.«138528_j22462678958222_2_alg».proof.Proof.KernelArray
import proofs.«138528_j22462678958222_2_alg».proof.Proof.RefRun
import proofs.«138528_j22462678958222_2_alg».proof.Proof.RefJoint
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- The idealization rewrote no operation. -/
theorem preserves : Cert.preserves_Kernel_KernelIdeal := trivial

/-- From memories that agree on the two arguments both programs end with the result array at `joint` of the arguments:
    the kernel's by its blocks, the reference's by its operations read at an index. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.HostRun.run (F := Ideal) m' ρ')
  rw [Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
